-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1600000 : Shape := ⟨2, ![2, 1600000]⟩
abbrev S1000x128 : Shape := ⟨2, ![1000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S1000x128 : S_.BroadcastsInDim S1000x128 (![] : Fin 0 → Fin S1000x128.rank)
  reducesTo_S1000x128_S_d0_1 : S1000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : IVec S100000 32) (main_arg1 : IVec S2x1600000 32) (main_arg2 : FVec F S1000x128 .f32) (main_arg3 : FVec F S128x128 .f32) (main_arg4 : FVec F S128 .f32) (main_arg5 : FVec F S128x64 .f32) (main_arg6 : FVec F S64 .f32) : IVec S_ 1 :=
  let main_v0 : FVec F S1000x128 .f32 := Host.absf main_arg2
  let main_cst : FVec F S_ .f32 := constant S_ .f32 0x7F800000#32
  let main_v1 : FVec F S1000x128 .f32 := broadcastInDim S1000x128 ![] bcast_S_S1000x128 main_cst
  let main_v2 : IVec S1000x128 1 := cmpf .olt main_v0 main_v1
  let main_c : IVec S_ 1 := constantI S_ 1 1#1
  let main_v3 : IVec S_ 1 := (fun x v => Host.reduce IntOp.andi x v reducesTo_S1000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000 : Shape := ⟨1, ![100000]⟩
abbrev S2x1600000 : Shape := ⟨2, ![2, 1600000]⟩
abbrev S1000x128 : Shape := ⟨2, ![1000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x128 : Shape := ⟨2, ![100000, 128]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 95
  | .vmem => 11
  | .smem => 0
  | _ => 0

abbrev bufTy : (tb : Table) → Fin (tcTables nBuf tb) → BufTy
  | .hbm, ⟨0, _⟩ => ⟨S100000, .i32⟩
  | .hbm, ⟨1, _⟩ => ⟨S2x1600000, .i32⟩
  | .hbm, ⟨2, _⟩ => ⟨S1000x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S100000, .i32⟩
  | .hbm, ⟨50, _⟩ => ⟨S100000, .i1⟩
  | .hbm, ⟨51, _⟩ => ⟨S_, .i32⟩
  | .hbm, ⟨52, _⟩ => ⟨S100000, .i32⟩
  | .hbm, ⟨53, _⟩ => ⟨S100000, .i32⟩
  | .hbm, ⟨54, _⟩ => ⟨S100000, .i32⟩
  | .hbm, ⟨55, _⟩ => ⟨S100000x1, .i32⟩
  | .hbm, ⟨56, _⟩ => ⟨S100000x128, .f32⟩
  | .hbm, ⟨57, _⟩ => ⟨S100000x128, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x128, .f32⟩
  | .hbm, ⟨67, _⟩ => ⟨S1700000x1, .f32⟩
  | .hbm, ⟨68, _⟩ => ⟨S1700000x128, .f32⟩
  | .hbm, ⟨69, _⟩ => ⟨S1700000x128, .f32⟩
  | .hbm, ⟨70, _⟩ => ⟨S_, .f32⟩
  | .hbm, ⟨71, _⟩ => ⟨S100000x128, .f32⟩
  | .hbm, ⟨72, _⟩ => ⟨S1700000x1, .i32⟩
  | .hbm, ⟨73, _⟩ => ⟨S100000x128, .f32⟩
  | .hbm, ⟨74, _⟩ => ⟨S1x128, .f32⟩
  | .hbm, ⟨75, _⟩ => ⟨S100000x64, .f32⟩
  | .hbm, ⟨76, _⟩ => ⟨S_, .i32⟩
  | .hbm, ⟨77, _⟩ => ⟨S1700000, .i32⟩
  | .hbm, ⟨78, _⟩ => ⟨S1700000, .i1⟩
  | .hbm, ⟨79, _⟩ => ⟨S_, .i32⟩
  | .hbm, ⟨80, _⟩ => ⟨S1700000, .i32⟩
  | .hbm, ⟨81, _⟩ => ⟨S1700000, .i32⟩
  | .hbm, ⟨82, _⟩ => ⟨S1700000, .i32⟩
  | .hbm, ⟨83, _⟩ => ⟨S1700000x1, .i32⟩
  | .hbm, ⟨84, _⟩ => ⟨S1700000x64, .f32⟩
  | .hbm, ⟨85, _⟩ => ⟨S1700000x1, .f32⟩
  | .hbm, ⟨86, _⟩ => ⟨S1700000x64, .f32⟩
  | .hbm, ⟨87, _⟩ => ⟨S1700000x64, .f32⟩
  | .hbm, ⟨88, _⟩ => ⟨S_, .f32⟩
  | .hbm, ⟨89, _⟩ => ⟨S100000x64, .f32⟩
  | .hbm, ⟨90, _⟩ => ⟨S1700000x1, .i32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x64, .f32⟩
  | .local _ .vmem, ⟨9, _⟩ => ⟨S10000x64, .f32⟩
  | .local _ .vmem, ⟨10, _⟩ => ⟨S10000x64, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_c_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_11 : Ref sig .tc := ⟨.hbm, 76, rfl⟩
abbrev main_v54 : Ref sig .tc := ⟨.hbm, 77, rfl⟩
abbrev main_v55 : Ref sig .tc := ⟨.hbm, 78, rfl⟩
abbrev main_c_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S1000x128_S100000x1_S100000x128_1_0_n_n_0_1_1128_wf : GatherDims.WF S1000x128 S100000x1 S100000x128 [1] [0] [] [0] [] 1 ![1, 128]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S1000x128_S100000x1_S100000x128_1_0_n_n_0_1_1128 : GatherDims S1000x128 S100000x1 S100000x128 where
  offsetDims := [1]
  collapsedSliceDims := [0]
  operandBatchingDims := []
  startIndicesBatchingDims := []
  startIndexMap := [0]
  indexVectorDim := 1
  sliceSizes := ![1, 128]
  wf := gather_S1000x128_S100000x1_S100000x128_1_0_n_n_0_1_1128_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_v37) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000 : Shape := ⟨1, ![100000]⟩
abbrev S2x1600000 : Shape := ⟨2, ![2, 1600000]⟩
abbrev S1000x128 : Shape := ⟨2, ![1000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S100000x128 : Shape := ⟨2, ![100000, 128]⟩
abbrev S1700000 : Shape := ⟨1, ![1700000]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 137
  | .vmem => 0
  | .smem => 0
  | _ => 0

abbrev hbmTy0_0 (i : Nat) : BufTy := match i % 128 with
  | 0 => ⟨S100000, .i32⟩
  | 1 => ⟨S2x1600000, .i32⟩
  | 2 => ⟨S1000x128, .f32⟩
  | 3 => ⟨S128x128, .f32⟩
  | 4 => ⟨S128, .f32⟩
  | 5 => ⟨S128x64, .f32⟩
  | 6 => ⟨S64, .f32⟩
  | 7 => ⟨S1x1600000, .i32⟩
  | 8 => ⟨S1600000, .i32⟩
  | 9 => ⟨S1x1600000, .i32⟩
  | 10 => ⟨S1600000, .i32⟩
  | 11 => ⟨S_, .i32⟩
  | 12 => ⟨S100000, .i32⟩
  | 13 => ⟨S100000, .i1⟩
  | 14 => ⟨S_, .i32⟩
  | 15 => ⟨S100000, .i32⟩
  | 16 => ⟨S100000, .i32⟩
  | 17 => ⟨S100000, .i32⟩
  | 18 => ⟨S100000x1, .i32⟩
  | 19 => ⟨S100000x128, .f32⟩
  | 20 => ⟨S100000, .i32⟩
  | 21 => ⟨S1700000, .i32⟩
  | 22 => ⟨S1700000, .i32⟩
  | 23 => ⟨S_, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S100000x128, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x128, .f32⟩
  | 67 => ⟨S1700000x1, .f32⟩
  | 68 => ⟨S1700000x128, .f32⟩
  | 69 => ⟨S1700000x128, .f32⟩
  | 70 => ⟨S_, .f32⟩
  | 71 => ⟨S100000x128, .f32⟩
  | 72 => ⟨S1700000x1, .i32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S100000, .i32⟩
  | 81 => ⟨S1700000, .i32⟩
  | 82 => ⟨S1700000, .i32⟩
  | 83 => ⟨S_, .f32⟩
  | 84 => ⟨S1700000, .f32⟩
  | 85 => ⟨S_, .f32⟩
  | 86 => ⟨S100000, .f32⟩
  | 87 => ⟨S1700000x1, .i32⟩
  | 88 => ⟨S100000, .f32⟩
  | 89 => ⟨S_, .f32⟩
  | 90 => ⟨S100000, .f32⟩
  | 91 => ⟨S100000, .i1⟩
  | 92 => ⟨S100000, .f32⟩
  | 93 => ⟨S_, .f32⟩
  | 94 => ⟨S_, .f32⟩
  | 95 => ⟨S100000, .f32⟩
  | 96 => ⟨S100000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S1700000, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000, .f32⟩
  | 116 => ⟨S1700000, .f32⟩
  | 117 => ⟨S100000x64, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000x64, .f32⟩
  | 127 => ⟨S1700000x1, .f32⟩
  | _ => ⟨S100000, .i32⟩

abbrev hbmTy0_1 (i : Nat) : BufTy := match i % 128 with
  | 0 => ⟨S1700000x64, .f32⟩
  | 1 => ⟨S1700000x64, .f32⟩
  | 2 => ⟨S_, .f32⟩
  | 3 => ⟨S100000x64, .f32⟩
  | 4 => ⟨S1700000x1, .i32⟩
  | 5 => ⟨S100000x64, .f32⟩
  | 6 => ⟨S1x64, .f32⟩
  | 7 => ⟨S100000x64, .f32⟩
  | 8 => ⟨S100000x64, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_c_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_14 : Ref sig .tc := ⟨.hbm, 93, rfl⟩
abbrev main_call2_v0 : Ref sig .tc := ⟨.hbm, 94, rfl⟩
abbrev main_call2_v1 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_c_19 : Ref sig .tc := ⟨.hbm, 118, rfl⟩
abbrev main_v84 : Ref sig .tc := ⟨.hbm, 119, rfl⟩
abbrev main_v85 : Ref sig .tc := ⟨.hbm, 120, rfl⟩
abbrev main_c_20 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_21 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  concatenates_S1600000_S100000_S1700000_d0 : Shape.Concatenates [S1600000, S100000] S1700000 0
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S1000x128_S100000x1_S100000x128_1_0_n_n_0_1_1128_wf : GatherDims.WF S1000x128 S100000x1 S100000x128 [1] [0] [] [0] [] 1 ![1, 128]
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def gather_S1000x128_S100000x1_S100000x128_1_0_n_n_0_1_1128 : GatherDims S1000x128 S100000x1 S100000x128 where
  offsetDims := [1]
  collapsedSliceDims := [0]
  operandBatchingDims := []
  startIndicesBatchingDims := []
  startIndexMap := [0]
  indexVectorDim := 1
  sliceSizes := ![1, 128]
  wf := gather_S1000x128_S100000x1_S100000x128_1_0_n_n_0_1_1128_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.LibCat2.lean ====
/-
  A concatenate of two arrays with the operands as plain arguments.

  The printed `concatenate t a [⟨s₁, x₁⟩, ⟨s₂, x₂⟩] h` carries its operands inside a list whose shapes the proof `h`
  speaks about, so a rewriting pass that must keep `h`'s type in step will not rewrite under the list.  `cat2` is the same
  array with `x₁`, `x₂` as ordinary arguments after `h` (whose type mentions the shapes only); `cat2_fold` is the
  definitional equation between the two, oriented for folding the printed form.
-/
import Idealize.ShloMosaic.PureOps

namespace Cert.Lib

open Idealize.ShloMosaic

/-- `x₁` and `x₂` joined along axis `a` into shape `t`. -/
def cat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- The printed two-operand concatenate is `cat2` of its operands. -/
theorem cat2_fold {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ h x₁ x₂ := rfl

end Cert.Lib
-- ==== Proof.Spec.lean ====
/-
  The graph convolution encoder as one function of its seven arrays.

  A graph on n = 100000 nodes is given by 1600000 directed edges (row 0 of the edge array: the source of each edge,
  row 1: its target); to these a self-loop at every node is added, 1700000 edges in all.  The degree of a node counts the
  edges that end in it; an edge from s to d is weighted dis(s) * 1 * dis(d), where dis is the reciprocal square root
  of the degree (0 where the degree is not positive).  One convolution of node features h (one row per node) sends along
  every edge the source's row times the edge's weight and adds up, at each node, what arrives there.  The encoder:
  look the node types up in an embedding table, multiply by W1, convolve, add the bias b1 to every row, clip below at 0,
  multiply by W2, convolve, add the bias b2 to every row.

  A node index below zero counts from the end (n is added to it), as array indexing does; that is part of the function
  and the same on both sides of the comparison this file serves.
-/
import proofs.«137753_j71124658421873_1_alg».proof.Proof.Gen.ReferenceIdeal
import proofs.«137753_j71124658421873_1_alg».proof.Proof.LibCat2

noncomputable section

namespace Cert.Spec

open Idealize.ShloMosaic Cert.ReferenceIdeal Cert.ReferenceIdeal.Gen Cert.Lib

variable {F : FTy → Type} [FloatOps F]

/-- Row `r` of the edge array as a vector, with the self-loops 0, 1, …, n-1 appended: the edges' sources (`r = 0`)… -/
def ends0 (e : (⟨S2x1600000, .i32⟩ : BufTy).Contents (Elt F)) : (⟨S1700000, .i32⟩ : BufTy).Contents (Elt F) :=
  cat2 S1700000 0 S1600000 S100000 concatenates_S1600000_S100000_S1700000_d0
    (shapeCast S1600000 (extractStridedSlice S1x1600000 ![0, 0] e slices_S2x1600000_S1x1600000_0_0) shapeCasts_S1x1600000_S1600000)
    (iotaInDim S100000 32 0)

/-- …and their targets (`r = 1`). -/
def ends1 (e : (⟨S2x1600000, .i32⟩ : BufTy).Contents (Elt F)) : (⟨S1700000, .i32⟩ : BufTy).Contents (Elt F) :=
  cat2 S1700000 0 S1600000 S100000 concatenates_S1600000_S100000_S1700000_d0
    (shapeCast S1600000 (extractStridedSlice S1x1600000 ![1, 0] e slices_S2x1600000_S1x1600000_1_0) shapeCasts_S1x1600000_S1600000)
    (iotaInDim S100000 32 0)

/-- A node index below zero counts from the end: n is added to it. -/
def wrapN (s : (⟨S1700000, .i32⟩ : BufTy).Contents (Elt F)) : (⟨S1700000, .i32⟩ : BufTy).Contents (Elt F) :=
  select (cmpi .slt s (broadcastInDim S1700000 ![] bcast_S_S1700000 (constantI S_ 32 0#32)))
    (addi s (broadcastInDim S1700000 ![] bcast_S_S1700000 (constantI S_ 32 100000#32))) s

/-- One index per edge, as the one-column array a gather or scatter takes. -/
def col {α : Type} (s : S1700000.Idx → α) : S1700000x1.Idx → α :=
  broadcastInDim S1700000x1 ![0] bcast_S1700000_S1700000x1_0 s

/-- The weight 1 of every edge. -/
def ones : (⟨S1700000, .f32⟩ : BufTy).Contents (Elt F) :=
  broadcastInDim S1700000 ![] bcast_S_S1700000 (constant S_ .f32 0x3F800000#32)

/-- The degree of every node: the weights of the edges that end in it, added up. -/
def deg (e : (⟨S2x1600000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32)) (col (ends1 e)) ones

/-- deg^(-1/2) where the degree is positive, 0 elsewhere. -/
def dis (e : (⟨S2x1600000, .i32⟩ : BufTy).Contents (Elt F)) : (⟨S100000, .f32⟩ : BufTy).Contents (Elt F) :=
  select (cmpf (F := F) .ogt (deg e) (broadcastInDim S100000 ![] bcast_S_S100000 (constant S_ .f32 0x00000000#32)))
    (Host.rsqrt (deg e))
    (broadcastInDim S100000 ![] bcast_S_S100000 (id (constant S_ .f32 0x00000000#32)))

/-- The weight of every edge, from the nodes' factors `ds`, the edges' sources `s` and targets `d`, and the unit weights
    `o`: ds(source) * o * ds(target). -/
def normOf (ds : (⟨S100000, .f32⟩ : BufTy).Contents (Elt F)) (s d : (⟨S1700000, .i32⟩ : BufTy).Contents (Elt F)) (o : (⟨S1700000, .f32⟩ : BufTy).Contents (Elt F)) : (⟨S1700000, .f32⟩ : BufTy).Contents (Elt F) :=
  mulf (mulf (Host.gather gather_S100000_S1700000x1_S1700000_n_0_n_n_0_1_1 ds (col (wrapN s))) o)
    (Host.gather gather_S100000_S1700000x1_S1700000_n_0_n_n_0_1_1 ds (col (wrapN d)))

/-- One convolution of 128-column node features `h` over the edges `s → d` with weights `nrm`: along every edge the
    source's row times the edge's weight, added up at the edge's target. -/
def convOf128 (h : (⟨S100000x128, .f32⟩ : BufTy).Contents (Elt F)) (s d : (⟨S1700000, .i32⟩ : BufTy).Contents (Elt F)) (nrm : (⟨S1700000, .f32⟩ : BufTy).Contents (Elt F)) :
    (⟨S100000x128, .f32⟩ : BufTy).Contents (Elt F) :=
  Host.scatterAdd scatter_S100000x128_S1700000x1_S1700000x128_1_0_0_1
    (broadcastInDim S100000x128 ![] bcast_S_S100000x128 (constant S_ .f32 0x00000000#32)) (col d)
    (mulf (Host.gather gather_S100000x128_S1700000x1_S1700000x128_1_0_n_n_0_1_1128 h (col (wrapN s)))
      (broadcastInDim S1700000x128 ![0, 1] bcast_S1700000x1_S1700000x128_0_1 (col nrm)))

/-- The same for 64-column node features. -/
def convOf64 (h : (⟨S100000x64, .f32⟩ : BufTy).Contents (Elt F)) (s d : (⟨S1700000, .i32⟩ : BufTy).Contents (Elt F)) (nrm : (⟨S1700000, .f32⟩ : BufTy).Contents (Elt F)) :
    (⟨S100000x64, .f32⟩ : BufTy).Contents (Elt F) :=
  Host.scatterAdd scatter_S100000x64_S1700000x1_S1700000x64_1_0_0_1
    (broadcastInDim S100000x64 ![] bcast_S_S100000x64 (constant S_ .f32 0x00000000#32)) (col d)
    (mulf (Host.gather gather_S100000x64_S1700000x1_S1700000x64_1_0_n_n_0_1_164 h (col (wrapN s)))
      (broadcastInDim S1700000x64 ![0, 1] bcast_S1700000x1_S1700000x64_0_1 (col nrm)))

/-- The embedding lookup: row `x[i]` of the table for node `i` (an index below zero counting from the table's end). -/
def embed (x : (⟨S100000, .i32⟩ : BufTy).Contents (Elt F)) (emb : (⟨S1000x128, .f32⟩ : BufTy).Contents (Elt F)) :
    (⟨S100000x128, .f32⟩ : BufTy).Contents (Elt F) :=
  Host.gather gather_S1000x128_S100000x1_S100000x128_1_0_n_n_0_1_1128 emb
    (broadcastInDim S100000x1 ![0] bcast_S100000_S100000x1_0
      (select (cmpi .slt x (broadcastInDim S100000 ![] bcast_S_S100000 (constantI S_ 32 0#32)))
        (addi x (broadcastInDim S100000 ![] bcast_S_S100000 (constantI S_ 32 1000#32))) x))

/-- The first dense layer: node features times W1. -/
def lin1 (h : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none h w

/-- The second dense layer with what precedes it: the bias added to every row, clipped below at 0, times W2. -/
def lin2 (a : (⟨S100000x128, .f32⟩ : BufTy).Contents (Elt F)) (b : (⟨S128, .f32⟩ : BufTy).Contents (Elt F))
    (w : (⟨S128x64, .f32⟩ : BufTy).Contents (Elt F)) : (⟨S100000x64, .f32⟩ : BufTy).Contents (Elt F) :=
  Host.dotGeneral dot_S100000x128_S128x64_S100000x64_1_0_0_1_n_n none
    (maximumf (addf a (broadcastInDim S100000x128 ![0, 1] bcast_S1x128_S100000x128_0_1 (broadcastInDim S1x128 ![1] bcast_S128_S1x128_1 b)))
      (broadcastInDim S100000x128 ![] bcast_S_S100000x128 (constant S_ .f32 0x00000000#32))) w

/-- The encoder over a graph given by its nodes' factors, its edges' sources and targets and the unit weights: look the
    node types up, first dense layer, convolve, second dense layer (bias and clipping in front), convolve, last bias. -/
def encode (ds : (⟨S100000, .f32⟩ : BufTy).Contents (Elt F)) (s d : (⟨S1700000, .i32⟩ : BufTy).Contents (Elt F)) (o : (⟨S1700000, .f32⟩ : BufTy).Contents (Elt F))
    (x : (⟨S100000, .i32⟩ : BufTy).Contents (Elt F)) (emb : (⟨S1000x128, .f32⟩ : BufTy).Contents (Elt F)) (w1 : (⟨S128x128, .f32⟩ : BufTy).Contents (Elt F))
    (b1 : (⟨S128, .f32⟩ : BufTy).Contents (Elt F)) (w2 : (⟨S128x64, .f32⟩ : BufTy).Contents (Elt F)) (b2 : (⟨S64, .f32⟩ : BufTy).Contents (Elt F)) : (⟨S100000x64, .f32⟩ : BufTy).Contents (Elt F) :=
  addf (convOf64 (lin2 (convOf128 (lin1 (embed x emb) w1) s d (normOf ds s d o)) b1 w2) s d (normOf ds s d o))
    (broadcastInDim S100000x64 ![0, 1] bcast_S1x64_S100000x64_0_1 (broadcastInDim S1x64 ![1] bcast_S64_S1x64_1 b2))

/-- The encoder: the graph's factors, edge ends and unit weights are those of the edge array `e`. -/
def gcn (x : (⟨S100000, .i32⟩ : BufTy).Contents (Elt F)) (e : (⟨S2x1600000, .i32⟩ : BufTy).Contents (Elt F))
    (emb : (⟨S1000x128, .f32⟩ : BufTy).Contents (Elt F)) (w1 : (⟨S128x128, .f32⟩ : BufTy).Contents (Elt F))
    (b1 : (⟨S128, .f32⟩ : BufTy).Contents (Elt F)) (w2 : (⟨S128x64, .f32⟩ : BufTy).Contents (Elt F))
    (b2 : (⟨S64, .f32⟩ : BufTy).Contents (Elt F)) : (⟨S100000x64, .f32⟩ : BufTy).Contents (Elt F) :=
  encode (dis e) (ends0 e) (ends1 e) ones x emb w1 b1 w2 b2

end Cert.Spec

end
-- ==== Proof.RefValue.lean ====
/-
  What the reference computes.  Its program is a straight line of array operations; read from the last one backwards,
  each buffer's contents after the line is the operation that wrote it applied to its operands' contents, down to the
  seven argument arrays.  Read that way the result is the encoder `Cert.Spec.gcn` of the arguments: the embedding
  lookup, the two dense layers and the two convolutions appear one for one; the edge weights, which the program
  computes twice (once per convolution), are the same term both times.
-/
import proofs.«137753_j71124658421873_1_alg».proof.Proof.RefRun
import proofs.«137753_j71124658421873_1_alg».proof.Proof.Spec

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 40000000 in
/-- The result buffer after the line holds the encoder of the launch contents of the arguments. -/
theorem result_eq (m : (ℓ : Loc nD τ sig) → Buf (Elt F) ℓ) (c : Dev nD) :
    after (ops (F := F)) (launchContents m c) (Proc.devRef .tc main_v99)
      = Cert.Spec.gcn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.cat2_fold]
  rfl

end Cert.ReferenceIdeal.HostRun

end
-- ==== Proof.LibDot.lean ====
/- A general lemma for reading a plain matrix product on the host at an index, at the ideal values: rows by columns,
   the sum over the one contracted coordinate. -/
import Idealize.ShloMosaic.PureOps.Ideal.Laws
import Idealize.ShloMosaic.Lib.ValueIdx

open scoped BigOperators

namespace Cert.LibDot

open Idealize.ShloMosaic Idealize.ShloMosaic.ValueIdx

/-- `dot_general` of `[M, K]` by `[K, N]` (contracting the left operand's axis 1 with the right one's axis 0) at `(r, c)`:
    the sum over `d` of `l[r, d] * w[d, c]`. -/
theorem dotGeneral_plain_apply {M K N : Nat} {φ₁ φ₂ : FTy} (prec : Option ContractPrecision) (sched : HostSchedule)
    (l : FVec Ideal ⟨2, ![M, K]⟩ φ₁) (w : FVec Ideal ⟨2, ![K, N]⟩ φ₂) (r : Fin M) (c : Fin N) :
    FloatOps.dotGeneral (DotDims.plain M K N) prec sched l w (ix2 r c) = ∑ d : Fin K, l (ix2 r d) * w (ix2 d c) := by
  rw [Ideal.dotGeneral_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

end Cert.LibDot
-- ==== Proof.LibMatmulRead.lean ====
/-
  Matrix products read at an index, at the ideal values.

  A two-axis array is a function of its index; `mm A B` is the matrix product written as the explicit sum over the
  contracted coordinate. A `tpu.matmul` of plain dimension numbers (rows by contraction, contraction by columns) into a
  zero accumulator, and the host's `dot_general` of the same dimension numbers, are both `mm` of their operands: no
  rounding, no chunk order, no accumulator is left at the ideal values.
-/
import Idealize.ShloMosaic.PureOps.Ideal.Laws
import Idealize.ShloMosaic.Lib.ValueIdx
import proofs.«137753_j71124658421873_1_alg».proof.Proof.LibDot

open scoped BigOperators

noncomputable section

namespace Cert.GCN

open Idealize.ShloMosaic Idealize.ShloMosaic.ValueIdx

/-- A two-axis array of extended reals. -/
abbrev Arr (n k : Nat) := (⟨2, ![n, k]⟩ : Shape).Idx → EReal

/-- The matrix product as explicit sums over the contracted coordinate. -/
def mm {n k p : Nat} (A : Arr n k) (B : Arr k p) : Arr n p := fun i => ∑ d : Fin k, A (ix2 (i 0) d) * B (ix2 d (i 1))

theorem mm_apply {n k p : Nat} (A : Arr n k) (B : Arr k p) (r : Fin n) (c : Fin p) :
    mm A B (ix2 r c) = ∑ d : Fin k, A (ix2 r d) * B (ix2 d c) := rfl

/-- A plain `tpu.matmul` into the zero accumulator at `(r, c)`: the sum over `d` of `l[r, d] * w[d, c]`. -/
theorem matmul_plain_zero_apply {M K N : Nat} {φ₁ φ₂ : FTy} (prec : Option ContractPrecision)
    (l : FVec Ideal ⟨2, ![M, K]⟩ φ₁) (w : FVec Ideal ⟨2, ![K, N]⟩ φ₂) (r : Fin M) (c : Fin N) :
    FloatOps.matmul (DotDims.plain M K N) prec l w (constant ⟨2, ![M, N]⟩ .f32 0x00000000#32) (ix2 r c) = ∑ d : Fin K, l (ix2 r d) * w (ix2 d c) := by
  rw [Ideal.matmul_constant_zero_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

/-- The host's plain `dot_general` is `mm` of its operands, as whole arrays. -/
theorem hostDot_eq_mm {M K N : Nat} {φ₁ φ₂ : FTy} (prec : Option ContractPrecision) (sched : HostSchedule)
    (l : FVec Ideal ⟨2, ![M, K]⟩ φ₁) (w : FVec Ideal ⟨2, ![K, N]⟩ φ₂) :
    (FloatOps.dotGeneral (DotDims.plain M K N) prec sched l w : Arr M N) = mm l w := by
  funext i
  rw [eq_ix2 i]
  exact Cert.LibDot.dotGeneral_plain_apply prec sched l w (i 0) (i 1)

end Cert.GCN

end
-- ==== Proof.Region0.lean ====
/-
  The first dense layer, computed ten thousand rows at a time.

  The node axis (100000 rows) is cut into ten blocks of 10000 rows; at grid point t the kernel body sees rows
  10000·t … 10000·t + 9999 of the node features and the whole 128×128 weight matrix, and writes the product of the two
  as rows 10000·t … of the output.  Entry (p, q) of a block's product is the sum over d of (row p of the block)[d] times
  W[d, q], and row p of block t is row 10000·t + p of the whole array: so the block written at point t is block t of
  the whole product, and the ten blocks tile the output.  (Rounding the operands to bf16 on the way into the product
  is the identity at the ideal values.)
-/
import proofs.«137753_j71124658421873_1_alg».proof.Proof.Gen.KernelIdeal.Frame
import proofs.«137753_j71124658421873_1_alg».proof.Proof.Spec
import proofs.«137753_j71124658421873_1_alg».proof.Proof.LibMatmulRead
import Idealize.ShloMosaic.Lib.Pipeline.Value
import Idealize.ShloMosaic.Lib.ValueIdx

open scoped BigOperators

noncomputable section

namespace Cert.KernelIdeal.Dense

open Cert.KernelIdeal Cert.KernelIdeal.Gen Idealize.ShloMosaic Idealize.ShloMosaic.TcCoe Idealize.ShloMosaic.ValueIdx
open Idealize.ShloMosaic.Pipeline (Dat Cfg Window)
open Cert.GCN (mm)

theorem hz : (![0, 0] : Fin 2 → Nat) = fun _ => 0 := funext fun a => by fin_cases a <;> rfl

/-- The whole-array product of the specification is the explicit sum over the contracted coordinate. -/
theorem lin1_eq_mm (A : (⟨2, ![100000, 128]⟩ : Shape).Idx → EReal) (B : (⟨2, ![128, 128]⟩ : Shape).Idx → EReal) :
    Cert.Spec.lin1 (F := Ideal) A B = mm A B :=
  Cert.GCN.hostDot_eq_mm (φ₁ := .f32) (φ₂ := .f32) none HostSchedule.single A B

/-- The body's product at entry (p, q) of its block: the sum over d of x0[p, d] · x1[d, q]. -/
theorem pay0_apply (x0 : Vec Ideal S10000x128 .f32) (x1 : Vec Ideal S128x128 .f32) (p : Fin 10000) (q : Fin 128) :
    k0_pay1 (F := Ideal) x0 x1 (ix2 p q) = ∑ d : Fin 128, x0 (ix2 p d) * x1 (ix2 d q) := by
  refine (Cert.GCN.matmul_plain_zero_apply (M := 10000) (K := 128) (N := 128) none
    (truncf .bf16 (shapeCast S10000x128 x0 shapeCasts_S10000x128_S10000x128) bitsLt_bf16_f32)
    (truncf .bf16 x1 bitsLt_bf16_f32) p q).trans ?_
  refine Finset.sum_congr rfl fun d _ => ?_
  show shapeCast S10000x128 x0 shapeCasts_S10000x128_S10000x128 (ix2 p d) * x1 (ix2 d q) = _
  rw [shapeCast_self]

/-- The printed index maps over the grid: the row block of the features and of the output is the grid coordinate
    (at most 9), every other block index is 0. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block is some grid point's. -/
theorem idx_onto0 : ∀ q0 : Fin 10, ∃ t : Fin cfg0.N, win0_2.index t = ![q0.val, 0] :=
  (by decide +kernel : ∀ q0 : Fin 10, ∃ t : Fin grid0.N, win0_2.index t = ![q0.val, 0])

section
variable (V : (c : Dev nD) → (b : Ref sig .tc) → Buf (Elt Ideal) ((c : Thread nD τ).loc b))

/-- What grid point t writes back is block t of the whole product of the arrays the region finds. -/
theorem flushed0 (c : Dev nD) (t : Fin cfg0.N) :
    (dat0 (F := Ideal) V c).flushed 2 t
      = ((cfg0.win 2).blk t).view.read (Elt Ideal) (Cert.Spec.lin1 (F := Ideal) (V c main_v37) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  rw [lin1_eq_mm]
  obtain ⟨e0, e1, e2, e3, e4, e5⟩ := idx_facts0 t
  funext j
  obtain ⟨p, q, rfl⟩ : ∃ (p : Fin 10000) (q : Fin 128), j = ix2 p q := ⟨j 0, j 1, eq_ix2 j⟩
  show k0_pay1 (iblk0 V c 0 t) (iblk0 V c 1 t) (ix2 p q)
    = mm (V c main_v37) (V c main_arg3) (((cfg0.win 2).blk t).view.emb (ix2 p q))
  refine (pay0_apply (iblk0 V c 0 t) (iblk0 V c 1 t) p q).trans ?_
  refine Finset.sum_congr rfl fun d _ => ?_
  have h0 : ((cfg0.win 0).blk t).view.emb (ix2 p d) = ix2 ((((cfg0.win 2).blk t).view.emb (ix2 p q)) 0) d := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * d.val = d.val; omega
  have h1 : ((cfg0.win 1).blk t).view.emb (ix2 d q) = ix2 d ((((cfg0.win 2).blk t).view.emb (ix2 p q)) 1) := by
    funext a; apply Fin.ext
    match a with
    | ⟨0, _⟩ => show win0_1.index t (0 : Fin 2) * 128 + 1 * d.val = d.val; omega
    | ⟨1, _⟩ => show win0_1.index t (1 : Fin 2) * 128 + 1 * q.val = win0_2.index t (1 : Fin 2) * 128 + 1 * q.val; omega
  exact congrArg₂ (fun x y : EReal => x * y) (congrArg (V c main_v37) h0) (congrArg (V c main_arg3) h1)

/-- An index of the output array is in point t's block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v38).slice (win0_2.rect t)).set ↔ _
  rw [View.set_slice_whole, Rect.mem_set_unit]
  exact Iff.rfl

/-- The ten row blocks cover the output: row r lies in block r / 10000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array after the region: the whole product of the arrays the region finds. -/
theorem final0 (c : Dev nD) :
    (dat0 (F := Ideal) V c).arrAt 2 cfg0.N = Cert.Spec.lin1 (F := Ideal) (V c main_v37) (V c main_arg3) :=
  (dat0 (F := Ideal) V c).arrAt_eq_of_cover 2 _ (fun t _ => flushed0 V c t) cover0

end

end Cert.KernelIdeal.Dense

end
-- ==== Proof.Region1.lean ====
/-
  The second dense layer with the bias and the clipping in front of it, computed ten thousand rows at a time.

  At grid point t the kernel body sees rows 10000·t … 10000·t + 9999 of the aggregated features, the bias as one row
  of 128 entries, and the whole 128×64 weight matrix; it adds the bias row to every row of its block, clips below at 0,
  and multiplies by the weights.  Entry (p, q) of what it writes is the sum over d of max(a[p, d] + b[d], 0) · W[d, q]
  with a the block — row p of block t being row 10000·t + p of the whole array, this is entry (10000·t + p, q) of the
  whole-array product of the clipped biased features with W.  The ten blocks tile the output.
-/
import proofs.«137753_j71124658421873_1_alg».proof.Proof.Gen.KernelIdeal.Frame
import proofs.«137753_j71124658421873_1_alg».proof.Proof.Spec
import proofs.«137753_j71124658421873_1_alg».proof.Proof.LibMatmulRead
import Idealize.ShloMosaic.Lib.Pipeline.Value
import Idealize.ShloMosaic.Lib.ValueIdx
import Idealize.ShloMosaic.Lib.ValueLayout

open scoped BigOperators

noncomputable section

namespace Cert.KernelIdeal.Dense2

open Cert.KernelIdeal Cert.KernelIdeal.Gen Idealize.ShloMosaic Idealize.ShloMosaic.TcCoe Idealize.ShloMosaic.ValueIdx
open Idealize.ShloMosaic.Pipeline (Dat Cfg Window)
open Cert.GCN (mm Arr)

theorem hz : (![0, 0] : Fin 2 → Nat) = fun _ => 0 := funext fun a => by fin_cases a <;> rfl

/-- The features with the bias (given as a vector) added to every row, clipped below at 0. -/
def act (a : Arr 100000 128) (b : (⟨1, ![128]⟩ : Shape).Idx → EReal) : Arr 100000 128 :=
  fun i => max (a i + b (ix1 (i 1))) (Ideal.ofBits .f32 0x00000000#32)

/-- The same with the bias given as a one-row array. -/
def actRow (a : Arr 100000 128) (b : Arr 1 128) : Arr 100000 128 :=
  fun i => max (a i + b (ix2 (0 : Fin 1) (i 1))) (Ideal.ofBits .f32 0x00000000#32)

/-- A vector viewed as one row is that row. -/
theorem actRow_shapeCast (a : Arr 100000 128) (b : (⟨1, ![128]⟩ : Shape).Idx → EReal)
    (h : (⟨1, ![128]⟩ : Shape).ShapeCasts ⟨2, ![1, 128]⟩) :
    actRow a (shapeCast ⟨2, ![1, 128]⟩ b h) = act a b := by
  funext i
  obtain ⟨r, q, rfl⟩ : ∃ (r : Fin 100000) (q : Fin 128), i = ix2 r q := ⟨i 0, i 1, eq_ix2 i⟩
  show max (a (ix2 r q) + shapeCast ⟨2, ![1, 128]⟩ b h (ix2 (0 : Fin 1) q)) _ = max (a (ix2 r q) + b (ix1 q)) _
  rw [shapeCast_a_1a_apply]

/-- The specification's second dense layer is the explicit product of the clipped biased features with the weights. -/
theorem lin2_eq_mm (a : Arr 100000 128) (b : (⟨1, ![128]⟩ : Shape).Idx → EReal) (w : Arr 128 64) :
    Cert.Spec.lin2 (F := Ideal) a b w = mm (act a b) w := by
  unfold Cert.Spec.lin2
  refine (Cert.GCN.hostDot_eq_mm (φ₁ := .f32) (φ₂ := .f32) none HostSchedule.single _ w).trans (congrArg (fun l => mm l w) ?_)
  funext i
  obtain ⟨r, q, rfl⟩ : ∃ (r : Fin 100000) (q : Fin 128), i = ix2 r q := ⟨i 0, i 1, eq_ix2 i⟩
  show max (a (ix2 r q) + broadcastInDim Cert.ReferenceIdeal.S100000x128 ![0, 1] Cert.ReferenceIdeal.Gen.bcast_S1x128_S100000x128_0_1
        (broadcastInDim Cert.ReferenceIdeal.S1x128 ![1] Cert.ReferenceIdeal.Gen.bcast_S128_S1x128_1 b) (ix2 r q))
      (broadcastInDim Cert.ReferenceIdeal.S100000x128 ![] Cert.ReferenceIdeal.Gen.bcast_S_S100000x128 (constant (F := Ideal) Cert.ReferenceIdeal.S_ .f32 0x00000000#32) (ix2 r q))
    = max (a (ix2 r q) + b (ix1 q)) (Ideal.ofBits .f32 0x00000000#32)
  rw [broadcastInDim_apply _ Cert.ReferenceIdeal.Gen.bcast_S1x128_S100000x128_0_1 _ (ix2 r q) (ix2 (0 : Fin 1) q) (fun ax => match ax with
      | ⟨0, _⟩ => by show 0 = if (1 : Nat) = 1 then 0 else r.val; rw [if_pos rfl]
      | ⟨1, _⟩ => by show q.val = if (128 : Nat) = 1 then 0 else q.val; rw [if_neg (by decide)]),
    broadcastInDim_apply _ Cert.ReferenceIdeal.Gen.bcast_S128_S1x128_1 b (ix2 (0 : Fin 1) q) (ix1 q) (fun ax => match ax with
      | ⟨0, _⟩ => by show q.val = if (128 : Nat) = 1 then 0 else q.val; rw [if_neg (by decide)]),
    broadcastInDim_apply _ Cert.ReferenceIdeal.Gen.bcast_S_S100000x128 _ (ix2 r q) (fun ax => ax.elim0) (fun ax => ax.elim0)]
  rfl

/-- The body's product at entry (p, q) of its block: the sum over d of max(x0[p, d] + x2[0, d], 0) · x9[d, q]. -/
theorem pay1_apply (x0 : Vec Ideal S10000x128 .f32) (x2 : Vec Ideal S1x128 .f32) (x9 : Vec Ideal S128x64 .f32) (p : Fin 10000) (q : Fin 64) :
    k1_pay1 (F := Ideal) x0 x2 x9 (ix2 p q)
      = ∑ d : Fin 128, max (x0 (ix2 p d) + x2 (ix2 (0 : Fin 1) d)) (Ideal.ofBits .f32 0x00000000#32) * x9 (ix2 d q) := by
  refine (Cert.GCN.matmul_plain_zero_apply (M := 10000) (K := 128) (N := 64) none
    (truncf .bf16 (maximumf (addf (shapeCast S10000x128 x0 shapeCasts_S10000x128_S10000x128)
        (broadcastTo S10000x128 (shapeCast S1x128 x2 shapeCasts_S1x128_S1x128) broadcasts_S1x128_S10000x128))
      (broadcast S10000x128 (Scalar.ofBits .f32 0x00000000#32))) bitsLt_bf16_f32)
    (truncf .bf16 x9 bitsLt_bf16_f32) p q).trans ?_
  refine Finset.sum_congr rfl fun d _ => ?_
  show max (shapeCast S10000x128 x0 shapeCasts_S10000x128_S10000x128 (ix2 p d)
      + broadcastTo S10000x128 (shapeCast S1x128 x2 shapeCasts_S1x128_S1x128) broadcasts_S1x128_S10000x128 (ix2 p d))
      (Ideal.ofBits .f32 0x00000000#32) * x9 (ix2 d q) = _
  rw [shapeCast_self, broadcastTo_1b_ab_apply, shapeCast_self]

/-- The printed index maps over the grid: the row block of the features and of the output is the grid coordinate
    (at most 9), every other block index is 0. -/
theorem idx_facts1 : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every row block is some grid point's. -/
theorem idx_onto1 : ∀ q0 : Fin 10, ∃ t : Fin cfg1.N, win1_3.index t = ![q0.val, 0] :=
  (by decide +kernel : ∀ q0 : Fin 10, ∃ t : Fin grid1.N, win1_3.index t = ![q0.val, 0])

section
variable (V : (c : Dev nD) → (b : Ref sig .tc) → Buf (Elt Ideal) ((c : Thread nD τ).loc b))

/-- What grid point t writes back is block t of the whole product of the clipped biased features with the weights. -/
theorem flushed1 (c : Dev nD) (t : Fin cfg1.N) :
    (dat1 (F := Ideal) V c).flushed 3 t
      = ((cfg1.win 3).blk t).view.read (Elt Ideal) (mm (actRow (V c main_v51) (V c main_v52)) (V c main_arg5)) := by
  show (cfg1.win 3).cut (grid1.coords t) ((dat1 V c).after 3 t) = _
  rw [after1_3]
  unfold out1_3
  rw [View.canon_unit_zero hz]
  simp only [View.ld_unit_zero (S := S10000x128) hz, View.ld_unit_zero (S := S1x128) hz, View.ld_unit_zero (S := S128x64) hz]
  obtain ⟨e0, e1, e2, e3, e4, e5, e6, e7⟩ := idx_facts1 t
  funext j
  obtain ⟨p, q, rfl⟩ : ∃ (p : Fin 10000) (q : Fin 64), j = ix2 p q := ⟨j 0, j 1, eq_ix2 j⟩
  show k1_pay1 (iblk1 V c 0 t) (iblk1 V c 1 t) (iblk1 V c 2 t) (ix2 p q)
    = mm (actRow (V c main_v51) (V c main_v52)) (V c main_arg5) (((cfg1.win 3).blk t).view.emb (ix2 p q))
  refine (pay1_apply (iblk1 V c 0 t) (iblk1 V c 1 t) (iblk1 V c 2 t) p q).trans ?_
  refine Finset.sum_congr rfl fun d _ => ?_
  have h0 : ((cfg1.win 0).blk t).view.emb (ix2 p d) = ix2 ((((cfg1.win 3).blk t).view.emb (ix2 p q)) 0) d := by
    funext a; apply Fin.ext
    match a with
    | ⟨0, _⟩ => show win1_0.index t (0 : Fin 2) * 10000 + 1 * p.val = win1_3.index t (0 : Fin 2) * 10000 + 1 * p.val; omega
    | ⟨1, _⟩ => show win1_0.index t (1 : Fin 2) * 128 + 1 * d.val = d.val; omega
  have h1 : ((cfg1.win 1).blk t).view.emb (ix2 (0 : Fin 1) d) = ix2 (0 : Fin 1) d := by
    funext a; apply Fin.ext
    match a with
    | ⟨0, _⟩ => show win1_1.index t (0 : Fin 2) * 1 + 1 * 0 = 0; omega
    | ⟨1, _⟩ => show win1_1.index t (1 : Fin 2) * 128 + 1 * d.val = d.val; omega
  have h2 : ((cfg1.win 2).blk t).view.emb (ix2 d q) = ix2 d ((((cfg1.win 3).blk t).view.emb (ix2 p q)) 1) := by
    funext a; apply Fin.ext
    match a with
    | ⟨0, _⟩ => show win1_2.index t (0 : Fin 2) * 128 + 1 * d.val = d.val; omega
    | ⟨1, _⟩ => show win1_2.index t (1 : Fin 2) * 64 + 1 * q.val = win1_3.index t (1 : Fin 2) * 64 + 1 * q.val; omega
  exact congrArg₂ (fun x y : EReal => x * y)
    (congrArg₂ (fun x y : EReal => max (x + y) (Ideal.ofBits .f32 0x00000000#32)) (congrArg (V c main_v51) h0) (congrArg (V c main_v52) h1))
    (congrArg (V c main_arg5) h2)

/-- An index of the output array is in point t's block iff each coordinate is in the block's range on its axis. -/
theorem mem_blk1 (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v53).slice (win1_3.rect t)).set ↔ _
  rw [View.set_slice_whole, Rect.mem_set_unit]
  exact Iff.rfl

/-- The ten row blocks cover the output: row r lies in block r / 10000. -/
theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto1 ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- The output array after the region: the whole product of the clipped biased features with the weights. -/
theorem final1 (c : Dev nD) :
    (dat1 (F := Ideal) V c).arrAt 3 cfg1.N = mm (actRow (V c main_v51) (V c main_v52)) (V c main_arg5) :=
  (dat1 (F := Ideal) V c).arrAt_eq_of_cover 3 _ (fun t _ => flushed1 V c t) cover1

end

end Cert.KernelIdeal.Dense2

end
-- ==== Proof.LibRegionAsOp.lean ====
/-
  A pipelined region seen from outside is one operation on the core's buffers.

  When a region returns, the core's buffer contents are the entry contents with each of the region's arrays
  replaced by what the pipeline leaves in it (`Pipeline.withArrays`).  If every array but one ends as it was
  entered (the input windows) and the remaining one ends at the value some operation `op` — one that writes
  exactly that array's buffer — computes from the entry contents, then the region's effect on the whole
  valuation IS `op.result`.  A program that alternates host operations and such regions is then, as far as
  buffer contents go, a straight line of operations, and the contents after it are `StableHlo.after` of that
  line.  Also: the fold over a concatenation of two lines is the fold over the second after the first.
-/
import Idealize.ShloMosaic.Lib.Pipeline.FrameSuffix
import Idealize.ShloMosaic.Lib.StableHlo.Run

noncomputable section

namespace Cert.Lib

open Idealize.ShloMosaic Idealize.ShloMosaic.TcCoe Idealize.ShloMosaic.Pipeline

variable {nD : Nat} {τ : Topo} {sig : RefSig} {Val : EltTy → Type}

/-- The region's exit contents are one operation's result of its entry contents: the operation writes exactly
    the buffer of array `wo` (`hw`), the pipeline leaves in that array the operation's value (`hout`), and
    every other array of the region ends holding its entry contents (`hin`). -/
theorem withArrays_eq_result {gr W : Nat} (win : Fin W → WinSpec sig gr) (hinj : Function.Injective (arrRef win))
    (c : Dev nD) (V : Valuation τ sig Val) (A : (w : Fin W) → Buf Val ((win w).arr.view.loc (c.tc : Thread nD τ)))
    (op : HloOp τ sig Val) (wo : Fin W)
    (hw : op.writes = {Proc.devRef .tc (arrRef win wo)})
    (hout : A wo = op.result V (Proc.devRef .tc (arrRef win wo)))
    (hin : ∀ w, w ≠ wo → A w = V (Proc.devRef .tc (arrRef win w))) :
    withArrays win c V A = op.result V := by
  funext b
  by_cases h : ∃ w, Proc.devRef (τ := τ) .tc (arrRef win w) = b
  · obtain ⟨w, rfl⟩ := h
    rw [withArrays_arr win hinj]
    by_cases hwo : w = wo
    · subst hwo; exact hout
    · rw [hin w hwo, op.result_of_not_mem V]
      rw [hw, Finset.mem_singleton]
      exact fun e => hwo (hinj (Proc.devRef_injective _ e))
  · have hb : b ∉ op.writes := by
      rw [hw, Finset.mem_singleton]
      exact fun e => h ⟨wo, e.symm⟩
    rw [op.result_of_not_mem V hb]
    unfold withArrays
    rw [dif_neg h]

/-- The contents after two lines run one after the other. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

/-- One operation as a line. -/
theorem after_singleton (op : HloOp τ sig Val) (V : Valuation τ sig Val) :
    StableHlo.after [op] V = op.result V := rfl

end Cert.Lib

end
-- ==== Proof.KernelLine.lean ====
/-
  The kernel's program as one straight line of array operations.

  Between the host operations the program launches two pipelined regions.  Each leaves its input arrays as it found them
  and its one output array at a whole-array value of the arrays it found: the first at the product of the looked-up
  features with W1, the second at the product of the clipped biased aggregate with W2 (the bias reaches the region as a
  one-row view of b1, which reads b1 at the column).  So, as far as buffer contents go, each region is one array
  operation, and the contents after the whole program are those after a straight line of operations.  Read from the
  result backwards that line is the encoder `Cert.Spec.gcn` of the argument arrays — the edge weights, computed once
  here, feeding both convolutions.
-/
import proofs.«137753_j71124658421873_1_alg».proof.Proof.Region0
import proofs.«137753_j71124658421873_1_alg».proof.Proof.Region1
import proofs.«137753_j71124658421873_1_alg».proof.Proof.LibRegionAsOp

noncomputable section

namespace Cert.KernelIdeal.Line

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The first region as one operation: the product of the looked-up features with W1. -/
def op0 : HloOp τ sig (Elt Ideal) :=
  StableHlo.binary main_v37 main_arg3 main_v38 (fun h w => Cert.Spec.lin1 (F := Ideal) h w)

/-- The second region as one operation: bias, clipping, product with W2. -/
def op1 : HloOp τ sig (Elt Ideal) :=
  StableHlo.ternary main_v51 main_arg4 main_arg5 main_v53 (fun a b w => Cert.Spec.lin2 (F := Ideal) a b w)

/-- The contents when the first region returns are its operation's result of the contents it was entered with. -/
theorem W4_eq (c : Dev nD) : W4 (F := Ideal) m ρ c = op0.result (W3 m ρ c) := by
  unfold W4
  refine Cert.Lib.withArrays_eq_result spec0 launch0.win.arr_inj c (W3 m ρ c) _ op0 2 rfl ?_ ?_
  · refine (Cert.KernelIdeal.Dense.final0 (V3 m ρ) c).trans ?_
    exact (StableHlo.binary_result main_v37 main_arg3 main_v38 _ _ _ _ (W3 m ρ c)).symm
  · intro w hw
    match w, hw with
    | ⟨0, _⟩, _ => exact ((dat0 (V3 m ρ) c).arrAt_in 0 rfl _).trans (A_eq0 (V3 m ρ) c 0)
    | ⟨1, _⟩, _ => exact ((dat0 (V3 m ρ) c).arrAt_in 1 rfl _).trans (A_eq0 (V3 m ρ) c 1)
    | ⟨2, _⟩, h => exact absurd rfl h

/-- The bias as the second region finds it: b1 viewed as one row. -/
theorem v52_eq (c : Dev nD) :
    W5 (F := Ideal) m ρ c (Proc.devRef .tc main_v52)
      = shapeCast S1x128 (W5 (F := Ideal) m ρ c (Proc.devRef .tc main_arg4)) shapeCasts_S128_S1x128 := by
  show StableHlo.after hostOps1 (W4 m ρ c) (Proc.devRef .tc main_v52)
    = shapeCast S1x128 (StableHlo.after hostOps1 (W4 m ρ c) (Proc.devRef .tc main_arg4)) shapeCasts_S128_S1x128
  generalize W4 m ρ c = X
  after_results_simp
  rfl

/-- The contents when the second region returns are its operation's result of the contents it was entered with. -/
theorem W6_eq (c : Dev nD) : W6 (F := Ideal) m ρ c = op1.result (W5 m ρ c) := by
  unfold W6
  refine Cert.Lib.withArrays_eq_result spec1 launch1.win.arr_inj c (W5 m ρ c) _ op1 3 rfl ?_ ?_
  · refine (Cert.KernelIdeal.Dense2.final1 (V5 m ρ) c).trans ?_
    refine Eq.trans ?_ (StableHlo.ternary_result main_v51 main_arg4 main_arg5 main_v53 _ _ _ _ _ (W5 m ρ c)).symm
    show Cert.GCN.mm (Cert.KernelIdeal.Dense2.actRow (W5 m ρ c (Proc.devRef .tc main_v51)) (W5 m ρ c (Proc.devRef .tc main_v52)))
        (W5 m ρ c (Proc.devRef .tc main_arg5))
      = Cert.Spec.lin2 (F := Ideal) (W5 m ρ c (Proc.devRef .tc main_v51)) (W5 m ρ c (Proc.devRef .tc main_arg4)) (W5 m ρ c (Proc.devRef .tc main_arg5))
    rw [v52_eq, Cert.KernelIdeal.Dense2.lin2_eq_mm]
    exact congrArg (fun l => Cert.GCN.mm l _) (Cert.KernelIdeal.Dense2.actRow_shapeCast _ _ _)
  · intro w hw
    match w, hw with
    | ⟨0, _⟩, _ => exact ((dat1 (V5 m ρ) c).arrAt_in 0 rfl _).trans (A_eq1 (V5 m ρ) c 0)
    | ⟨1, _⟩, _ => exact ((dat1 (V5 m ρ) c).arrAt_in 1 rfl _).trans (A_eq1 (V5 m ρ) c 1)
    | ⟨2, _⟩, _ => exact ((dat1 (V5 m ρ) c).arrAt_in 2 rfl _).trans (A_eq1 (V5 m ρ) c 2)
    | ⟨3, _⟩, h => exact absurd rfl h

/-! ## The line up to the return of the call that clips the nodes' factors

What the later operations read of it: the nodes' factors, the edges' sources and targets with the self-loops, the unit
weights, and the arguments. -/

set_option maxRecDepth 16384 in
/-- Where the degree is positive. -/
theorem pre_gt (c : Dev nD) : W1 (F := Ideal) m ρ c (Proc.devRef .tc main_v12) = cmpf (F := Ideal) .ogt (Cert.Spec.deg (F := Ideal) (m ((c : Thread nD τ).loc main_arg1))) (broadcastInDim Cert.ReferenceIdeal.S100000 ![] Cert.ReferenceIdeal.Gen.bcast_S_S100000 (constant (F := Ideal) Cert.ReferenceIdeal.S_ .f32 0x00000000#32)) := by
  show StableHlo.after hostOps0 (W0 m ρ c) (Proc.devRef .tc main_v12) = _
  simp (disch := decide) only [hostOps0, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.cat2_fold]
  rfl

set_option maxRecDepth 16384 in
/-- The reciprocal square root of the degree. -/
theorem pre_rsqrt (c : Dev nD) : W1 (F := Ideal) m ρ c (Proc.devRef .tc main_v13) = (Host.rsqrt (F := Ideal) (φ := .f32) (Cert.Spec.deg (F := Ideal) (m ((c : Thread nD τ).loc main_arg1))) : (⟨Cert.ReferenceIdeal.S100000, .f32⟩ : BufTy).Contents (Elt Ideal)) := by
  show StableHlo.after hostOps0 (W0 m ρ c) (Proc.devRef .tc main_v13) = _
  simp (disch := decide) only [hostOps0, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.cat2_fold]
  rfl

set_option maxRecDepth 16384 in
/-- The constant 0 the call is given. -/
theorem pre_zero (c : Dev nD) : W1 (F := Ideal) m ρ c (Proc.devRef .tc main_cst_2) = constant (F := Ideal) Cert.ReferenceIdeal.S_ .f32 0x00000000#32 := by
  show StableHlo.after hostOps0 (W0 m ρ c) (Proc.devRef .tc main_cst_2) = _
  simp (disch := decide) only [hostOps0, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.cat2_fold]

/-- The call that clips the factors, over any contents `Y` at its entry: a selection between its second operand and
    its third, splat, by its first. -/
theorem call_eq (Y : Valuation τ sig (Elt Ideal)) :
    StableHlo.after hostOps0_1 Y (Proc.devRef .tc main_v14)
      = select (Y (Proc.devRef .tc main_v12)) (Y (Proc.devRef .tc main_v13)) (broadcastInDim S100000 ![] bcast_S_S100000 (id (Y (Proc.devRef .tc main_cst_2)))) := by
  simp (disch := decide) only [hostOps0_1, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.cat2_fold]
  rfl

/-- The nodes' factors deg^(-1/2), 0 where the degree is not positive. -/
theorem pre_dis (c : Dev nD) : W2 (F := Ideal) m ρ c (Proc.devRef .tc main_v14) = Cert.Spec.dis (F := Ideal) (m ((c : Thread nD τ).loc main_arg1)) := by
  show StableHlo.after hostOps0_1 (W1 m ρ c) (Proc.devRef .tc main_v14) = _
  rw [call_eq, pre_gt, pre_rsqrt, pre_zero]
  rfl

set_option maxRecDepth 16384 in
/-- The edges' sources, the self-loops appended. -/
theorem pre_src (c : Dev nD) : W2 (F := Ideal) m ρ c (Proc.devRef .tc main_v5) = Cert.Spec.ends0 (F := Ideal) (m ((c : Thread nD τ).loc main_arg1)) := by
  show StableHlo.after hostOps0_1 (StableHlo.after hostOps0 (W0 m ρ c)) (Proc.devRef .tc main_v5) = _
  simp (disch := decide) only [hostOps0, hostOps0_1, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.cat2_fold]
  rfl

set_option maxRecDepth 16384 in
/-- The edges' targets, the self-loops appended. -/
theorem pre_dst (c : Dev nD) : W2 (F := Ideal) m ρ c (Proc.devRef .tc main_v6) = Cert.Spec.ends1 (F := Ideal) (m ((c : Thread nD τ).loc main_arg1)) := by
  show StableHlo.after hostOps0_1 (StableHlo.after hostOps0 (W0 m ρ c)) (Proc.devRef .tc main_v6) = _
  simp (disch := decide) only [hostOps0, hostOps0_1, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.cat2_fold]
  rfl

set_option maxRecDepth 16384 in
/-- The unit weights. -/
theorem pre_ones (c : Dev nD) : W2 (F := Ideal) m ρ c (Proc.devRef .tc main_v7) = Cert.Spec.ones (F := Ideal) := by
  show StableHlo.after hostOps0_1 (StableHlo.after hostOps0 (W0 m ρ c)) (Proc.devRef .tc main_v7) = _
  simp (disch := decide) only [hostOps0, hostOps0_1, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.cat2_fold]
  rfl

theorem pre_arg0 (c : Dev nD) : W2 (F := Ideal) m ρ c (Proc.devRef .tc main_arg0) = m ((c : Thread nD τ).loc main_arg0) := by
  show StableHlo.after hostOps0_1 (StableHlo.after hostOps0 (W0 m ρ c)) (Proc.devRef .tc main_arg0) = _
  simp (disch := decide) only [hostOps0, hostOps0_1, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.cat2_fold]
  all_goals exact rfl

theorem pre_arg2 (c : Dev nD) : W2 (F := Ideal) m ρ c (Proc.devRef .tc main_arg2) = m ((c : Thread nD τ).loc main_arg2) := by
  show StableHlo.after hostOps0_1 (StableHlo.after hostOps0 (W0 m ρ c)) (Proc.devRef .tc main_arg2) = _
  simp (disch := decide) only [hostOps0, hostOps0_1, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.cat2_fold]
  all_goals exact rfl

theorem pre_arg3 (c : Dev nD) : W2 (F := Ideal) m ρ c (Proc.devRef .tc main_arg3) = m ((c : Thread nD τ).loc main_arg3) := by
  show StableHlo.after hostOps0_1 (StableHlo.after hostOps0 (W0 m ρ c)) (Proc.devRef .tc main_arg3) = _
  simp (disch := decide) only [hostOps0, hostOps0_1, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.cat2_fold]
  all_goals exact rfl

theorem pre_arg4 (c : Dev nD) : W2 (F := Ideal) m ρ c (Proc.devRef .tc main_arg4) = m ((c : Thread nD τ).loc main_arg4) := by
  show StableHlo.after hostOps0_1 (StableHlo.after hostOps0 (W0 m ρ c)) (Proc.devRef .tc main_arg4) = _
  simp (disch := decide) only [hostOps0, hostOps0_1, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.cat2_fold]
  all_goals exact rfl

theorem pre_arg5 (c : Dev nD) : W2 (F := Ideal) m ρ c (Proc.devRef .tc main_arg5) = m ((c : Thread nD τ).loc main_arg5) := by
  show StableHlo.after hostOps0_1 (StableHlo.after hostOps0 (W0 m ρ c)) (Proc.devRef .tc main_arg5) = _
  simp (disch := decide) only [hostOps0, hostOps0_1, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.cat2_fold]
  all_goals exact rfl

theorem pre_arg6 (c : Dev nD) : W2 (F := Ideal) m ρ c (Proc.devRef .tc main_arg6) = m ((c : Thread nD τ).loc main_arg6) := by
  show StableHlo.after hostOps0_1 (StableHlo.after hostOps0 (W0 m ρ c)) (Proc.devRef .tc main_arg6) = _
  simp (disch := decide) only [hostOps0, hostOps0_1, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.cat2_fold]
  all_goals exact rfl

/-! ## The line from there to the end, over any contents `X` at that point -/

set_option maxRecDepth 16384 in
set_option maxHeartbeats 40000000 in
/-- The result buffer after the rest of the line is the encoder over the graph data and the arguments found in `X`. -/
theorem rest_eq (X : Valuation τ sig (Elt Ideal)) :
    StableHlo.after hostOps2 (op1.result (StableHlo.after hostOps1 (op0.result (StableHlo.after hostOps0_2 X)))) (Proc.devRef .tc main_v69)
      = Cert.Spec.encode (F := Ideal) (X (Proc.devRef .tc main_v14)) (X (Proc.devRef .tc main_v5)) (X (Proc.devRef .tc main_v6)) (X (Proc.devRef .tc main_v7))
          (X (Proc.devRef .tc main_arg0)) (X (Proc.devRef .tc main_arg2)) (X (Proc.devRef .tc main_arg3)) (X (Proc.devRef .tc main_arg4)) (X (Proc.devRef .tc main_arg5)) (X (Proc.devRef .tc main_arg6)) := by
  simp (disch := decide) only [op0, op1, hostOps0_2, hostOps1, hostOps2, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.cat2_fold]
  rfl

/-- The result buffer after the whole program holds the encoder of the launch contents of the arguments. -/
theorem out_eq (c : Dev nD) :
    W7 (F := Ideal) m ρ c (Proc.devRef .tc main_v69)
      = Cert.Spec.gcn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W6 m ρ c) (Proc.devRef .tc main_v69) = _
  rw [W6_eq]
  show StableHlo.after hostOps2 (op1.result (StableHlo.after hostOps1 (W4 m ρ c))) (Proc.devRef .tc main_v69) = _
  rw [W4_eq]
  show StableHlo.after hostOps2 (op1.result (StableHlo.after hostOps1 (op0.result (StableHlo.after hostOps0_2 (W2 m ρ c))))) (Proc.devRef .tc main_v69) = _
  rw [rest_eq, pre_dis, pre_src, pre_dst, pre_ones, pre_arg0, pre_arg2, pre_arg3, pre_arg4, pre_arg5, pre_arg6]
  rfl

end Cert.KernelIdeal.Line

end
-- ==== Proof.KernelRun.lean ====
/-
  The kernel's program runs, and its result buffer ends at the contents the straight-line reading names.

  The run is the one the frame rests on: the program cut into host stretches and the two pipelined regions, each
  segment taking the buffer contents at its start to the contents at its end, from the launch memory to the return.  The
  last thread state holds every buffer at the final contents, so reading it against the final memory gives, beside the
  argument arrays unchanged, the result buffer at the final contents.
-/
import proofs.«137753_j71124658421873_1_alg».proof.Proof.Gen.KernelIdeal.Frame

set_option maxRecDepth 16384

noncomputable section

namespace Cert.KernelIdeal.Line

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the final
    contents of the segments' fold and the argument arrays as launched. -/
theorem run_out : θ_run defs (onTc (τ := τ) (main (F := F))) ⟨m, fun _ => 0, ρ⟩ (fun r => ∀ c : Dev nD,
      r.2.mem ((c.tc : Thread nD τ).loc main_v69) = W7 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v69 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.Line

end
-- ==== Proof.lean ====
/-
  The kernel's program and the reference compute one function of their seven argument arrays: a two-layer graph
  convolution encoder (`Cert.Spec.gcn` in Proof/Spec.lean says which).

  The reference is a straight line of array operations, and reading it backwards from its result gives the encoder
  (Proof/RefValue.lean).  The kernel's program does the two dense layers in pipelined regions, ten thousand node rows at
  a time, and everything else — the embedding lookup, the edge weights, the gather, scale and scatter-add of each
  convolution, the last bias — in the same array operations as the reference.  A region's blocks are blocks of one
  whole-array product (Proof/Region0.lean, Proof/Region1.lean: a row block of a matrix product is the product of the row
  block), so each region acts on the buffers as one array operation, the program reads as a straight line too, and that
  line read backwards is the same encoder (Proof/KernelLine.lean).  The two differ only in grouping: the kernel's program
  computes the edge weights once and the reference once per convolution, and the kernel adds the first bias and clips
  inside its second region.  At the ideal values the rounding to bf16 on the way into the products is the identity, and
  no law of arithmetic beyond that is used: nothing here needs the inputs finite.

  The three frames: the kernel's two are the generated ones; the reference's is its run with the result dropped.  The
  ideal pass rewrote nothing in the kernel, so there is nothing to preserve.
-/
import proofs.«137753_j71124658421873_1_alg».proof.Defs
import proofs.«137753_j71124658421873_1_alg».proof.Proof.Gen.Kernel
import proofs.«137753_j71124658421873_1_alg».proof.Proof.Gen.Kernel.Frame
import proofs.«137753_j71124658421873_1_alg».proof.Proof.Gen.KernelIdeal
import proofs.«137753_j71124658421873_1_alg».proof.Proof.Gen.KernelIdeal.Frame
import proofs.«137753_j71124658421873_1_alg».proof.Proof.Gen.ReferenceIdeal
import proofs.«137753_j71124658421873_1_alg».proof.Proof.Gen.Pre_finite_inputs
import proofs.«137753_j71124658421873_1_alg».proof.Proof.RefValue
import proofs.«137753_j71124658421873_1_alg».proof.Proof.KernelLine
import proofs.«137753_j71124658421873_1_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.HostRun.run (F := Ideal) m ρ)

theorem preserves : Cert.preserves_Kernel_KernelIdeal := trivial

/-- Both programs end with the result buffer at the encoder of the argument arrays, which agree. -/
theorem algebraic : Cert.algebraic_KernelIdeal_ReferenceIdeal := by
  intro m ρ m' ρ' _ hagree
  refine ⟨fun c => Cert.Spec.gcn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun _ h c => ⟨(h c).1.trans (Cert.KernelIdeal.Line.out_eq m ρ c), (h c).2⟩)
      (Cert.KernelIdeal.Line.run_out (F := Ideal) m ρ)
  · refine (θ_run Cert.ReferenceIdeal.defs _ _).mono (fun _ h c => ⟨(h c).1.trans ?_, (h c).2⟩)
      (Cert.ReferenceIdeal.HostRun.run (F := Ideal) m' ρ')
    rw [Cert.ReferenceIdeal.HostRun.result_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
